-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x300 : Shape := ⟨2, ![65536, 300]⟩
abbrev S256x300 : Shape := ⟨2, ![256, 300]⟩
abbrev S256 : Shape := ⟨1, ![256]⟩
abbrev S3x256x256 : Shape := ⟨3, ![3, 256, 256]⟩
abbrev S3x256 : Shape := ⟨2, ![3, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x300 : S_.BroadcastsInDim S65536x300 (![] : Fin 0 → Fin S65536x300.rank)
  reducesTo_S65536x300_S_d0_1 : S65536x300.ReducesTo [0, 1] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg4 : FVec F S3x256x256 .f32) (main_arg5 : FVec F S3x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256x256 .f32 := Host.absf main_arg4
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S3x256 .f32 := Host.absf main_arg5
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  main_v28

def fn {F : FTy → Type} [FloatOps F] (main_arg0 : FVec F S65536x256 .f32) (main_arg1 : FVec F S65536x300 .f32) (main_arg2 : FVec F S256x300 .f32) (main_arg3 : FVec F S256 .f32) (main_arg4 : FVec F S3x256x256 .f32) (main_arg5 : FVec F S3x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x300 .f32 := Host.absf main_arg1
  let main_cst_0 : FVec F S_ .f32 := constant S_ .f32 0x7F800000#32
  let main_v5 : FVec F S65536x300 .f32 := broadcastInDim S65536x300 ![] bcast_S_S65536x300 main_cst_0
  let main_v6 : IVec S65536x300 1 := cmpf .olt main_v4 main_v5
  let main_c_1 : IVec S_ 1 := constantI S_ 1 1#1
  let main_v7 : IVec S_ 1 := (fun x v => Host.reduce IntOp.andi x v reducesTo_S65536x300_S_d0_1 h_S_) main_v6 main_c_1
  let main_v8 : IVec S_ 1 := andi main_v3 main_v7
  let main_v9 : FVec F S256x300 .f32 := Host.absf main_arg2
  let main_cst_2 : FVec F S_ .f32 := constant S_ .f32 0x7F800000#32
  let main_v10 : FVec F S256x300 .f32 := broadcastInDim S256x300 ![] bcast_S_S256x300 main_cst_2
  let main_v11 : IVec S256x300 1 := cmpf .olt main_v9 main_v10
  let main_c_3 : IVec S_ 1 := constantI S_ 1 1#1
  let main_v12 : IVec S_ 1 := (fun x v => Host.reduce IntOp.andi x v reducesTo_S256x300_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S65536x256 : Shape := ⟨2, ![65536, 256]⟩
abbrev S65536x300 : Shape := ⟨2, ![65536, 300]⟩
abbrev S256x300 : Shape := ⟨2, ![256, 300]⟩
abbrev S256 : Shape := ⟨1, ![256]⟩
abbrev S3x256x256 : Shape := ⟨3, ![3, 256, 256]⟩
abbrev S3x256 : Shape := ⟨2, ![3, 256]⟩
abbrev S300x256 : Shape := ⟨2, ![300, 256]⟩
abbrev S4096x256 : Shape := ⟨2, ![4096, 256]⟩
abbrev S4096x300 : Shape := ⟨2, ![4096, 300]⟩
abbrev S1024x300 : Shape := ⟨2, ![1024, 300]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S1x256x256 : Shape := ⟨3, ![1, 256, 256]⟩
abbrev S256x256 : Shape := ⟨2, ![256, 256]⟩

abbrev nBuf : Space → Nat
  | .hbm => 11
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S65536x300, .f32⟩
  | .hbm, ⟨2, _⟩ => ⟨S256x300, .f32⟩
  | .hbm, ⟨3, _⟩ => ⟨S256, .f32⟩
  | .hbm, ⟨4, _⟩ => ⟨S3x256x256, .f32⟩
  | .hbm, ⟨5, _⟩ => ⟨S3x256, .f32⟩
  | .hbm, ⟨6, _⟩ => ⟨S300x256, .f32⟩
  | .hbm, ⟨7, _⟩ => ⟨S300x256, .bf16⟩
  | .hbm, ⟨8, _⟩ => ⟨S3x256x256, .f32⟩
  | .hbm, ⟨9, _⟩ => ⟨S3x256x256, .bf16⟩
  | .hbm, ⟨10, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S4096x300, .f32⟩
  | .local _ .vmem, ⟨3, _⟩ => ⟨S4096x300, .f32⟩
  | .local _ .vmem, ⟨4, _⟩ => ⟨S300x256, .bf16⟩
  | .local _ .vmem, ⟨5, _⟩ => ⟨S256, .f32⟩
  | .local _ .vmem, ⟨6, _⟩ => ⟨S3x256x256, .bf16⟩
  | .local _ .vmem, ⟨7, _⟩ => ⟨S3x256, .f32⟩
  | .local _ .vmem, ⟨8, _⟩ => ⟨S4096x256, .f32⟩
  | .local _ .vmem, ⟨9, _⟩ => ⟨S4096x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c1024_i32 : BitVec 32 := 1024#32
  let v6 : BitVec 32 := Scalar.muli c0_i32 c1024_i32
  let v7 : BitVec 32 := v6
  let v8 : Index := Scalar.indexCast v7
  let c0_7 : Index := 0#32
  ![v8.toNat, 0]
def k0_off2 (c0_i32 : BitVec 32) : Fin 2 → Nat :=
  let c1024_i32 : BitVec 32 := 1024#32
  let v6 : BitVec 32 := Scalar.muli c0_i32 c1024_i32
  let v7 : BitVec 32 := v6
  let v10 : Index := Scalar.indexCast v7
  let c0_8 : Index := 0#32
  ![v10.toNat, 0]
def k0_mult2 : BitVec 32 :=
  let c1_i32 : BitVec 32 := 1#32
  let c1024_i32_25 : BitVec 32 := 1024#32
  let v94 : BitVec 32 := Scalar.muli c1_i32 c1024_i32_25
  v94
def k0_mult3 : BitVec 32 :=
  let c2_i32 : BitVec 32 := 2#32
  let c1024_i32_45 : BitVec 32 := 1024#32
  let v182 : BitVec 32 := Scalar.muli c2_i32 c1024_i32_45
  v182
def k0_mult4 : BitVec 32 :=
  let c3_i32 : BitVec 32 := 3#32
  let c1024_i32_65 : BitVec 32 := 1024#32
  let v270 : BitVec 32 := Scalar.muli c3_i32 c1024_i32_65
  v270
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x300_S300x256_1_0 : S256x300.Transposes [1, 0] S300x256
  bitsLt_bf16_f32 : FTy.bits .bf16 < FTy.bits .f32
  transposes_S3x256x256_S3x256x256_0_2_1 : S3x256x256.Transposes [0, 2, 1] S3x256x256
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S256_S256_0 : ∀ a, (![0] : Fin 1 → Nat) a + S256.size a ≤ S256.size a
  h_S256 : 0 < S256.numel
  inb_S3x256x256_S3x256x256_0_0_0 : ∀ a, (![0, 0, 0] : Fin 3 → Nat) a + S3x256x256.size a ≤ S3x256x256.size a
  h_S3x256x256 : 0 < S3x256x256.numel
  shapeCasts_S3x256x256_S3x256x256 : S3x256x256.ShapeCasts S3x256x256
  inb_S3x256_S3x256_0_0 : ∀ a, (![0, 0] : Fin 2 → Nat) a + S3x256.size a ≤ S3x256.size a
  h_S3x256 : 0 < S3x256.numel
  h_S1024x300 : 0 < S1024x300.numel
  h_S1024x256 : 0 < S1024x256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  slices_S3x256x256_o0_0_0_S1x256x256 : S3x256x256.Slices ![0, 0, 0] S1x256x256
  shapeCasts_S1x256x256_S256x256 : S1x256x256.ShapeCasts S256x256
  slices_S3x256_o0_0_S1x256 : S3x256.Slices ![0, 0] S1x256
  shapeCasts_S1x256_S256 : S1x256.ShapeCasts S256
  slices_S3x256x256_o1_0_0_S1x256x256 : S3x256x256.Slices ![1, 0, 0] S1x256x256
  slices_S3x256_o1_0_S1x256 : S3x256.Slices ![1, 0] S1x256
  slices_S3x256x256_o2_0_0_S1x256x256 : S3x256x256.Slices ![2, 0, 0] S1x256x256
  slices_S3x256_o2_0_S1x256 : S3x256.Slices ![2, 0] S1x256
  dot_S1024x300_S300x256_S1024x256_1_0_0_1_n_n_wf : DotDims.WF S1024x300 S300x256 S1024x256 [1] [0] [0] [1] [] []
  dot_S1024x256_S256x256_S1024x256_1_0_0_1_n_n_wf : DotDims.WF S1024x256 S256x256 S1024x256 [1] [0] [0] [1] [] []
  hrank0 : 0 < grid0.rank
  k0_mult1_dvd : 1024 ∣ k0_mult1.toNat
  k0_off1_inb : ∀ (r : Fin 4), ∀ a, (k0_off1 (BitVec.ofNat 32 r.val)) a + S1024x300.size a ≤ S4096x300.size a
  k0_off2_inb : ∀ (r : Fin 4), ∀ a, (k0_off2 (BitVec.ofNat 32 r.val)) a + S1024x256.size a ≤ S4096x256.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x300.size a ≤ S65536x300.size a
  hwx0_1 : ∀ i : grid0.Coords, EltTy.bits .f32 = 32 ∨ (Rect.block (s := S65536x300) S4096x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x256.size a ≤ S300x256.size a
  hwx0_2 : ∀ i : grid0.Coords, EltTy.bits .bf16 = 32 ∨ (Rect.block (s := S300x256) S300x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256x256.size a ≤ S3x256x256.size a
  hwx0_4 : ∀ i : grid0.Coords, EltTy.bits .bf16 = 32 ∨ (Rect.block (s := S3x256x256) S3x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .f32 = 32 ∨ (Rect.block (s := S3x256) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S65536x256.size a
  hwx0_6 : ∀ i : grid0.Coords, EltTy.bits .f32 = 32 ∨ (Rect.block (s := S65536x256) S4096x256.size (cc0_transform_6 i) (hinb0_6 i)).WholeWords (EltTy.packing .f32)

variable [Facts₀]

def dot_S1024x300_S300x256_S1024x256_1_0_0_1_n_n : DotDims S1024x300 S300x256 S1024x256 where
  lhsContracting := [1]
  rhsContracting := [0]
  lhsNonContracting := [0]
  rhsNonContracting := [1]
  lhsBatch := []
  rhsBatch := []
  wf := dot_S1024x300_S300x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S300x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x300 : Shape := ⟨2, ![65536, 300]⟩
abbrev S256x300 : Shape := ⟨2, ![256, 300]⟩
abbrev S256 : Shape := ⟨1, ![256]⟩
abbrev S3x256x256 : Shape := ⟨3, ![3, 256, 256]⟩
abbrev S3x256 : Shape := ⟨2, ![3, 256]⟩
abbrev S300x256 : Shape := ⟨2, ![300, 256]⟩
abbrev S1x256 : Shape := ⟨2, ![1, 256]⟩
abbrev S_ : Shape := ⟨0, ![]⟩
abbrev S65536 : Shape := ⟨1, ![65536]⟩
abbrev S65536x1 : Shape := ⟨2, ![65536, 1]⟩
abbrev S1x256x256 : Shape := ⟨3, ![1, 256, 256]⟩
abbrev S256x256 : Shape := ⟨2, ![256, 256]⟩

abbrev nBuf : Space → Nat
  | .hbm => 98
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x300, .f32⟩
  | .hbm, ⟨2, _⟩ => ⟨S256x300, .f32⟩
  | .hbm, ⟨3, _⟩ => ⟨S256, .f32⟩
  | .hbm, ⟨4, _⟩ => ⟨S3x256x256, .f32⟩
  | .hbm, ⟨5, _⟩ => ⟨S3x256, .f32⟩
  | .hbm, ⟨6, _⟩ => ⟨S300x256, .f32⟩
  | .hbm, ⟨7, _⟩ => ⟨S65536x256, .f32⟩
  | .hbm, ⟨8, _⟩ => ⟨S1x256, .f32⟩
  | .hbm, ⟨9, _⟩ => ⟨S65536x256, .f32⟩
  | .hbm, ⟨10, _⟩ => ⟨S65536x256, .f32⟩
  | .hbm, ⟨11, _⟩ => ⟨S65536x256, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x256, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x1, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S1x256x256, .f32⟩
  | .hbm, ⟨27, _⟩ => ⟨S256x256, .f32⟩
  | .hbm, ⟨28, _⟩ => ⟨S256x256, .f32⟩
  | .hbm, ⟨29, _⟩ => ⟨S65536x256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S65536x256, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S65536x1, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S1x256x256, .f32⟩
  | .hbm, ⟨51, _⟩ => ⟨S256x256, .f32⟩
  | .hbm, ⟨52, _⟩ => ⟨S256x256, .f32⟩
  | .hbm, ⟨53, _⟩ => ⟨S65536x256, .f32⟩
  | .hbm, ⟨54, _⟩ => ⟨S1x256, .f32⟩
  | .hbm, ⟨55, _⟩ => ⟨S256, .f32⟩
  | .hbm, ⟨56, _⟩ => ⟨S1x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S65536x256, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x256, .f32⟩
  | .hbm, ⟨69, _⟩ => ⟨S65536x256, .f32⟩
  | .hbm, ⟨70, _⟩ => ⟨S65536x1, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S1x256x256, .f32⟩
  | .hbm, ⟨75, _⟩ => ⟨S256x256, .f32⟩
  | .hbm, ⟨76, _⟩ => ⟨S256x256, .f32⟩
  | .hbm, ⟨77, _⟩ => ⟨S65536x256, .f32⟩
  | .hbm, ⟨78, _⟩ => ⟨S1x256, .f32⟩
  | .hbm, ⟨79, _⟩ => ⟨S256, .f32⟩
  | .hbm, ⟨80, _⟩ => ⟨S1x256, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S_, .f32⟩
  | .hbm, ⟨85, _⟩ => ⟨S65536, .f32⟩
  | .hbm, ⟨86, _⟩ => ⟨S65536x1, .f32⟩
  | .hbm, ⟨87, _⟩ => ⟨S65536x256, .f32⟩
  | .hbm, ⟨88, _⟩ => ⟨S_, .f32⟩
  | .hbm, ⟨89, _⟩ => ⟨S65536, .f32⟩
  | .hbm, ⟨90, _⟩ => ⟨S65536x1, .f32⟩
  | .hbm, ⟨91, _⟩ => ⟨S_, .f32⟩
  | .hbm, ⟨92, _⟩ => ⟨S65536x256, .f32⟩
  | .hbm, ⟨93, _⟩ => ⟨S65536x256, .f32⟩
  | .hbm, ⟨94, _⟩ => ⟨S65536x1, .f32⟩
  | .hbm, ⟨95, _⟩ => ⟨S65536x256, .f32⟩
  | .hbm, ⟨96, _⟩ => ⟨S65536x256, .f32⟩
  | .hbm, ⟨97, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]

class Facts₀ : Prop where
  transposes_S256x300_S300x256_1_0 : S256x300.Transposes [1, 0] S300x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  dot_S65536x300_S300x256_S65536x256_1_0_0_1_n_n_wf : DotDims.WF S65536x300 S300x256 S65536x256 [1] [0] [0] [1] [] []
  dot_S65536x256_S256x256_S65536x256_1_0_0_1_n_n_wf : DotDims.WF S65536x256 S256x256 S65536x256 [1] [0] [0] [1] [] []

variable [Facts₀]

def dot_S65536x300_S300x256_S65536x256_1_0_0_1_n_n : DotDims S65536x300 S300x256 S65536x256 where
  lhsContracting := [1]
  rhsContracting := [0]
  lhsNonContracting := [0]
  rhsNonContracting := [1]
  lhsBatch := []
  rhsBatch := []
  wf := dot_S65536x300_S300x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  The specification: a chain of four Householder reflections of one row, on the extended reals.

  A row `h` of K numbers goes through a dense layer `v₀ = h·W₀ + b₀` to a row of n numbers, and then through three
  more dense layers `vₗ₊₁ = vₗ·Wₗ + bₗ`. Beside it a row `z` of n numbers is reflected four times, once by each `vₗ`:
  `z ↦ z − 2·v·((v·z) / (v·v))`, the inner products sums over the row. Nothing here depends on another row, so the
  result array is this function of each row of the two batched inputs; the weights enter transposed, as the programs
  read them: entry (k, q) of a layer's matrix is entry (q, k) of the weight array.
-/
import Idealize.ShloMosaic.PureOps.Ideal
import Idealize.ShloMosaic.Lib.ValueIdx

noncomputable section

open scoped BigOperators

namespace Cert.Flow

open Idealize.ShloMosaic Idealize.ShloMosaic.ValueIdx

variable {K n : ℕ}

/-- The factor 2 of a reflection: the f32 word both programs print for it, read at the extended reals. -/
def two : EReal := Ideal.ofBits .f32 0x40000000#32

/-- A dense layer on one row: `(x·w)_q + b_q`, with `w` indexed (input, output). -/
def affine {B : ℕ} (w : Fin K → Fin B → EReal) (b : Fin B → EReal) (x : Fin K → EReal) : Fin B → EReal :=
  fun q => (∑ k : Fin K, x k * w k q) + b q

/-- The Householder reflection of the row `z` by the row `v`: `z − 2·v·((v·z) / (v·v))`. -/
def reflect (v z : Fin n → EReal) : Fin n → EReal :=
  fun q => z q - (two * v q) * Ideal.div (∑ k : Fin n, v k * z k) (∑ k : Fin n, v k * v k)

/-- Four layers and four reflections of one row. -/
def chain (w0 : Fin K → Fin n → EReal) (b0 : Fin n → EReal) (ws : Fin 3 → Fin n → Fin n → EReal)
    (bs : Fin 3 → Fin n → EReal) (h : Fin K → EReal) (z : Fin n → EReal) : Fin n → EReal :=
  reflect (affine (ws 2) (bs 2) (affine (ws 1) (bs 1) (affine (ws 0) (bs 0) (affine w0 b0 h))))
    (reflect (affine (ws 1) (bs 1) (affine (ws 0) (bs 0) (affine w0 b0 h)))
      (reflect (affine (ws 0) (bs 0) (affine w0 b0 h))
        (reflect (affine w0 b0 h) z)))

variable {R : ℕ}

/-- Entry (r, q) of the result: the chain on row r of `h` and of `z`, the weight arrays read transposed. -/
def entry (z : (⟨2, ![R, n]⟩ : Shape).Idx → EReal) (h : (⟨2, ![R, K]⟩ : Shape).Idx → EReal)
    (W0 : (⟨2, ![n, K]⟩ : Shape).Idx → EReal) (b0 : (⟨1, ![n]⟩ : Shape).Idx → EReal)
    (Ws : (⟨3, ![3, n, n]⟩ : Shape).Idx → EReal) (bs : (⟨2, ![3, n]⟩ : Shape).Idx → EReal)
    (r : Fin R) (q : Fin n) : EReal :=
  chain (fun k q => W0 (ix2 q k)) (fun q => b0 (ix1 q)) (fun l k q => Ws (ix3 l q k)) (fun l q => bs (ix2 l q))
    (fun k => h (ix2 r k)) (fun k => z (ix2 r k)) q

/-- The result array. -/
def result (z : (⟨2, ![R, n]⟩ : Shape).Idx → EReal) (h : (⟨2, ![R, K]⟩ : Shape).Idx → EReal)
    (W0 : (⟨2, ![n, K]⟩ : Shape).Idx → EReal) (b0 : (⟨1, ![n]⟩ : Shape).Idx → EReal)
    (Ws : (⟨3, ![3, n, n]⟩ : Shape).Idx → EReal) (bs : (⟨2, ![3, n]⟩ : Shape).Idx → EReal) :
    (⟨2, ![R, n]⟩ : Shape).Idx → EReal :=
  fun i => entry z h W0 b0 Ws bs (i 0) (i 1)

theorem result_apply (z : (⟨2, ![R, n]⟩ : Shape).Idx → EReal) (h : (⟨2, ![R, K]⟩ : Shape).Idx → EReal)
    (W0 : (⟨2, ![n, K]⟩ : Shape).Idx → EReal) (b0 : (⟨1, ![n]⟩ : Shape).Idx → EReal)
    (Ws : (⟨3, ![3, n, n]⟩ : Shape).Idx → EReal) (bs : (⟨2, ![3, n]⟩ : Shape).Idx → EReal) (r : Fin R) (q : Fin n) :
    result z h W0 b0 Ws bs (ix2 r q) = entry z h W0 b0 Ws bs r q := rfl

end Cert.Flow

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«142471_j44659069944367_2_alg».proof.Proof.LibMatmul2
import proofs.«142471_j44659069944367_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«142471_j44659069944367_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibStackLayer.lean ====
/-
  One layer of a stack of weights read at an index.

  A stack of m matrices [m, a, b] cut to its layer l (a unit-stride slice [1, a, b] at offsets (l, 0, 0)) and cast to
  the matrix [a, b] reads, at (i, j), the stack at (l, i, j). A stack of m rows [m, b] cut to its row l ([1, b] at
  offsets (l, 0)) and cast to the vector [b] reads, at j, the stack at (l, j). Both hold for any element type; the offsets
  are a variable with a defining equation, so that a program's own spelling of them is matched as it stands.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- Layer `l` of an [m, a, b] stack, as a matrix, at (i, j): the stack at (l, i, j). -/
theorem stackLayer_apply {m a b : ℕ} (x : (⟨3, ![m, a, b]⟩ : Shape).Idx → α)
    (off : Fin (⟨3, ![m, a, b]⟩ : Shape).rank → ℕ) (l : Fin m) (hoff : off = ![l.val, 0, 0])
    (hs : (⟨3, ![m, a, b]⟩ : Shape).Slices off ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ off x hs) hc (ix2 i j) = x (ix3 l i j) := by
  subst hoff
  refine (shapeCast_1ab_ab_apply _ hc i j).trans ?_
  refine extractStridedSlice_apply _ x hs _ (ix3 l i j) fun ax => ?_
  match ax with
  | ⟨0, _⟩ => rfl
  | ⟨1, _⟩ => exact (Nat.zero_add _).symm
  | ⟨2, _⟩ => exact (Nat.zero_add _).symm

/-- Row `l` of an [m, b] stack, as a vector, at j: the stack at (l, j). -/
theorem stackRow_apply {m b : ℕ} (x : (⟨2, ![m, b]⟩ : Shape).Idx → α)
    (off : Fin (⟨2, ![m, b]⟩ : Shape).rank → ℕ) (l : Fin m) (hoff : off = ![l.val, 0])
    (hs : (⟨2, ![m, b]⟩ : Shape).Slices off ⟨2, ![1, b]⟩)
    (hc : (⟨2, ![1, b]⟩ : Shape).ShapeCasts ⟨1, ![b]⟩) (j : Fin b) :
    shapeCast ⟨1, ![b]⟩ (extractStridedSlice ⟨2, ![1, b]⟩ off x hs) hc (ix1 j) = x (ix2 l j) := by
  subst hoff
  refine (shapeCast_1a_a_apply _ hc j).trans ?_
  refine extractStridedSlice_apply _ x hs _ (ix2 l j) fun ax => ?_
  match ax with
  | ⟨0, _⟩ => rfl
  | ⟨1, _⟩ => exact (Nat.zero_add _).symm

end Cert.Lib

end
-- ==== Proof.Body.lean ====
/-
  The kernel's body on one chunk of 1024 rows, in a vocabulary of its own, and what it computes at the extended reals.

  The printed body handles a block of 4096 rows as four chunks of 1024, each by the same operations: a dense layer
  of the chunk of `h` (a product with the resident [300, 256] weights into the zero accumulator, plus the bias row
  broadcast down the chunk), a reflection of the chunk of `z`, and three more times a dense layer of the previous
  layer's output (layer l of the resident [3, 256, 256] stack, row l of the [3, 256] biases) and a reflection. A
  reflection of `z` by `v` is `z − (2·v)·((Σ v·z) / (Σ v·v))`, the two sums over the row kept as columns, divided as
  columns, and broadcast back along the row. The definitions below spell these operations once, generic in the float
  instance, so that each of the four stored values is this one function of its loads (Pieces.lean). At the extended
  reals a change of float format is the identity, a product into the zero accumulator and a row reduction are plain
  sums, and so row p of a chunk's result is the specification's chain of row p of its two loads.
-/
import proofs.«142471_j44659069944367_2_alg».proof.Proof.Gen.KernelIdeal.Skeleton
import proofs.«142471_j44659069944367_2_alg».proof.Proof.Spec
import proofs.«142471_j44659069944367_2_alg».proof.Proof.LibEntryReads
import proofs.«142471_j44659069944367_2_alg».proof.Proof.LibAffineLayer
import proofs.«142471_j44659069944367_2_alg».proof.Proof.LibStackLayer
import Idealize.ShloMosaic.Lib.Pipeline.Value

noncomputable section

open scoped BigOperators

namespace Cert.KernelIdeal.Body

open Idealize.ShloMosaic Idealize.ShloMosaic.ValueIdx Cert.KernelIdeal Cert.KernelIdeal.Facts₀ Cert.KernelIdeal.Facts

section Vocabulary
variable {F : FTy → Type} [FloatOps F]

/-- The first dense layer on a chunk: the rows of `h`, rounded to bf16, times the [300, 256] weights, plus the bias
    row. -/
def dense0 (w : Vec F S300x256 .bf16) (b : Vec F S256 .f32) (h : Vec F S1024x300 .f32) : FVec F S1024x256 .f32 :=
  addf (matmul dot_S1024x300_S300x256_S1024x256_1_0_0_1_n_n none (truncf .bf16 h bitsLt_bf16_f32)
      (shapeCast S300x256 w shapeCasts_S300x256_S300x256) (constant S1024x256 .f32 0x00000000#32))
    (broadcastTo S1024x256 (shapeCast S1x256 b shapeCasts_S256_S1x256) broadcasts_S1x256_S1024x256)

/-- A later dense layer on a chunk: the rows of `v`, rounded to bf16, times one layer of the weight stack, plus one
    row of the bias stack; the layer is named by the two slices' offsets. -/
def denseL (o3 : Fin S3x256x256.rank → ℕ) (h3 : S3x256x256.Slices o3 S1x256x256) (o2 : Fin S3x256.rank → ℕ)
    (h2 : S3x256.Slices o2 S1x256) (ws : FVec F S3x256x256 .bf16) (bs : Vec F S3x256 .f32)
    (v : FVec F S1024x256 .f32) : FVec F S1024x256 .f32 :=
  addf (matmul dot_S1024x256_S256x256_S1024x256_1_0_0_1_n_n none (truncf .bf16 v bitsLt_bf16_f32)
      (shapeCast S256x256 (extractStridedSlice S1x256x256 o3 ws h3) shapeCasts_S1x256x256_S256x256)
      (constant S1024x256 .f32 0x00000000#32))
    (broadcastTo S1024x256
      (shapeCast S1x256 (shapeCast S256 (extractStridedSlice S1x256 o2 bs h2) shapeCasts_S1x256_S256) shapeCasts_S256_S1x256)
      broadcasts_S1x256_S1024x256)

/-- The reflection of the rows of `z` by the rows of `v`. -/
def reflectV (v z : FVec F S1024x256 .f32) : FVec F S1024x256 .f32 :=
  subf z (mulf (mulf (broadcast S1024x256 (Scalar.ofBits .f32 0x40000000#32)) v)
    (broadcastTo S1024x256
      (divf
        (shapeCast S1024x1 (multiReduction .add [1] S1024 (mulf v z) 0x00000000#32 reduces_S1024x256_S1024 (.inl rfl) rfl)
          shapeCasts_S1024_S1024x1)
        (shapeCast S1024x1 (multiReduction .add [1] S1024 (mulf v v) 0x00000000#32 reduces_S1024x256_S1024 (.inl rfl) rfl)
          shapeCasts_S1024_S1024x1))
      broadcasts_S1024x1_S1024x256))

/-- The three later layers, by their offsets. -/
abbrev dense1 (ws : FVec F S3x256x256 .bf16) (bs : Vec F S3x256 .f32) (v : FVec F S1024x256 .f32) : FVec F S1024x256 .f32 :=
  denseL ![0, 0, 0] slices_S3x256x256_o0_0_0_S1x256x256 ![0, 0] slices_S3x256_o0_0_S1x256 ws bs v
abbrev dense2 (ws : FVec F S3x256x256 .bf16) (bs : Vec F S3x256 .f32) (v : FVec F S1024x256 .f32) : FVec F S1024x256 .f32 :=
  denseL ![1, 0, 0] slices_S3x256x256_o1_0_0_S1x256x256 ![1, 0] slices_S3x256_o1_0_S1x256 ws bs v
abbrev dense3 (ws : FVec F S3x256x256 .bf16) (bs : Vec F S3x256 .f32) (v : FVec F S1024x256 .f32) : FVec F S1024x256 .f32 :=
  denseL ![2, 0, 0] slices_S3x256x256_o2_0_0_S1x256x256 ![2, 0] slices_S3x256_o2_0_S1x256 ws bs v

/-- The whole body on one chunk: the loads of the four resident operands, the chunk of `h` and the chunk of `z`. -/
def chunk (w0 : Vec F S300x256 .bf16) (b0 : Vec F S256 .f32) (ws : Vec F S3x256x256 .bf16) (bs : Vec F S3x256 .f32)
    (h : Vec F S1024x300 .f32) (z : Vec F S1024x256 .f32) : FVec F S1024x256 .f32 :=
  reflectV
    (dense3 (shapeCast S3x256x256 ws shapeCasts_S3x256x256_S3x256x256) bs
      (dense2 (shapeCast S3x256x256 ws shapeCasts_S3x256x256_S3x256x256) bs
        (dense1 (shapeCast S3x256x256 ws shapeCasts_S3x256x256_S3x256x256) bs (dense0 w0 b0 h))))
    (reflectV
      (dense2 (shapeCast S3x256x256 ws shapeCasts_S3x256x256_S3x256x256) bs
        (dense1 (shapeCast S3x256x256 ws shapeCasts_S3x256x256_S3x256x256) bs (dense0 w0 b0 h)))
      (reflectV (dense1 (shapeCast S3x256x256 ws shapeCasts_S3x256x256_S3x256x256) bs (dense0 w0 b0 h))
        (reflectV (dense0 w0 b0 h) z)))

end Vocabulary

/-! ## At the extended reals -/

/-- The first layer at (p, q): row p of `h` against column q of the weights, plus the bias at q. -/
theorem dense0_apply (w : Vec Ideal S300x256 .bf16) (b : Vec Ideal S256 .f32) (h : Vec Ideal S1024x300 .f32)
    (p : Fin 1024) (q : Fin 256) :
    dense0 w b h (ix2 p q) = (∑ k : Fin 300, h (ix2 p k) * w (ix2 k q)) + b (ix1 q) := by
  unfold dense0
  refine (addf_apply _ _ _).trans ?_
  refine congrArg₂ (· + ·) ?_ (Cert.Lib.rowBroadcast_apply b _ _ p q)
  refine (Cert.Lib.matmul_plain_apply _ dot_S1024x300_S300x256_S1024x256_1_0_0_1_n_n_wf rfl _ _ p q).trans ?_
  rw [shapeCast_self]
  rfl

/-- A later layer at (p, q): row p of `v` against column q of layer l, plus row l of the biases at q. -/
theorem denseL_apply (l : Fin 3) (o3 : Fin S3x256x256.rank → ℕ) (ho3 : o3 = ![l.val, 0, 0])
    (h3 : S3x256x256.Slices o3 S1x256x256) (o2 : Fin S3x256.rank → ℕ) (ho2 : o2 = ![l.val, 0])
    (h2 : S3x256.Slices o2 S1x256) (ws : FVec Ideal S3x256x256 .bf16) (bs : Vec Ideal S3x256 .f32)
    (v : FVec Ideal S1024x256 .f32) (p : Fin 1024) (q : Fin 256) :
    denseL o3 h3 o2 h2 ws bs v (ix2 p q) = (∑ k : Fin 256, v (ix2 p k) * ws (ix3 l k q)) + bs (ix2 l q) := by
  unfold denseL
  refine (addf_apply _ _ _).trans ?_
  refine congrArg₂ (· + ·) ?_ ?_
  · refine (Cert.Lib.matmul_plain_apply _ dot_S1024x256_S256x256_S1024x256_1_0_0_1_n_n_wf rfl _ _ p q).trans ?_
    refine Finset.sum_congr rfl fun k _ => ?_
    exact congrArg (v (ix2 p k) * ·) (Cert.Lib.stackLayer_apply ws o3 l ho3 h3 _ k q)
  · exact (Cert.Lib.rowBroadcast_apply _ _ _ p q).trans (Cert.Lib.stackRow_apply bs o2 l ho2 h2 _ q)

/-- A reflection at (p, q): only row p of `v` and of `z` enters. -/
theorem reflectV_apply (v z : FVec Ideal S1024x256 .f32) (p : Fin 1024) (q : Fin 256) :
    reflectV v z (ix2 p q) = z (ix2 p q) - (Cert.Flow.two * v (ix2 p q)) *
      Ideal.div (∑ k : Fin 256, v (ix2 p k) * z (ix2 p k)) (∑ k : Fin 256, v (ix2 p k) * v (ix2 p k)) := by
  have hcol : ∀ a : FVec Ideal S1024x256 .f32,
      shapeCast S1024x1 (multiReduction .add [1] S1024 a 0x00000000#32 reduces_S1024x256_S1024 (.inl rfl) rfl)
        shapeCasts_S1024_S1024x1 (ix2 p (0 : Fin 1)) = ∑ k : Fin 256, a (ix2 p k) := fun a =>
    (Cert.Lib.shapeCast_a_a1_apply _ shapeCasts_S1024_S1024x1 p 0).trans
      (Cert.Lib.rowSum_apply a 0x00000000#32 reduces_S1024x256_S1024 (.inl rfl) rfl p)
  unfold reflectV
  refine (subf_apply _ _ _).trans ?_
  refine congrArg (z (ix2 p q) - ·) ?_
  refine (mulf_apply _ _ _).trans ?_
  refine congrArg₂ (· * ·) rfl ?_
  refine (Cert.Lib.broadcastTo_a1_ab_apply _ broadcasts_S1024x1_S1024x256 p q).trans ?_
  refine (divf_apply _ _ _).trans ?_
  exact congrArg₂ Ideal.div (hcol (mulf v z)) (hcol (mulf v v))

/-! ## Row by row -/

theorem dense0_row (w : Vec Ideal S300x256 .bf16) (b : Vec Ideal S256 .f32) (h : Vec Ideal S1024x300 .f32) (p : Fin 1024) :
    (fun q : Fin 256 => dense0 w b h (ix2 p q))
      = Cert.Flow.affine (fun k q => w (ix2 k q)) (fun q => b (ix1 q)) (fun k => h (ix2 p k)) :=
  funext fun q => dense0_apply w b h p q

theorem dense1_row (ws : FVec Ideal S3x256x256 .bf16) (bs : Vec Ideal S3x256 .f32) (v : FVec Ideal S1024x256 .f32) (p : Fin 1024) :
    (fun q : Fin 256 => dense1 ws bs v (ix2 p q))
      = Cert.Flow.affine (fun k q => ws (ix3 (0 : Fin 3) k q)) (fun q => bs (ix2 (0 : Fin 3) q)) (fun k => v (ix2 p k)) :=
  funext fun q => denseL_apply 0 _ rfl _ _ rfl _ ws bs v p q

theorem dense2_row (ws : FVec Ideal S3x256x256 .bf16) (bs : Vec Ideal S3x256 .f32) (v : FVec Ideal S1024x256 .f32) (p : Fin 1024) :
    (fun q : Fin 256 => dense2 ws bs v (ix2 p q))
      = Cert.Flow.affine (fun k q => ws (ix3 (1 : Fin 3) k q)) (fun q => bs (ix2 (1 : Fin 3) q)) (fun k => v (ix2 p k)) :=
  funext fun q => denseL_apply 1 _ rfl _ _ rfl _ ws bs v p q

theorem dense3_row (ws : FVec Ideal S3x256x256 .bf16) (bs : Vec Ideal S3x256 .f32) (v : FVec Ideal S1024x256 .f32) (p : Fin 1024) :
    (fun q : Fin 256 => dense3 ws bs v (ix2 p q))
      = Cert.Flow.affine (fun k q => ws (ix3 (2 : Fin 3) k q)) (fun q => bs (ix2 (2 : Fin 3) q)) (fun k => v (ix2 p k)) :=
  funext fun q => denseL_apply 2 _ rfl _ _ rfl _ ws bs v p q

theorem reflectV_row (v z : FVec Ideal S1024x256 .f32) (p : Fin 1024) :
    (fun q : Fin 256 => reflectV v z (ix2 p q)) = Cert.Flow.reflect (fun k => v (ix2 p k)) (fun k => z (ix2 p k)) :=
  funext fun q => reflectV_apply v z p q

/-- Row p of a chunk's result is the specification's chain of row p of the chunk of `h` and of `z`. -/
theorem chunk_row (w0 : Vec Ideal S300x256 .bf16) (b0 : Vec Ideal S256 .f32) (ws : Vec Ideal S3x256x256 .bf16)
    (bs : Vec Ideal S3x256 .f32) (h : Vec Ideal S1024x300 .f32) (z : Vec Ideal S1024x256 .f32) (p : Fin 1024) :
    (fun q : Fin 256 => chunk w0 b0 ws bs h z (ix2 p q))
      = Cert.Flow.chain (fun k q => w0 (ix2 k q)) (fun q => b0 (ix1 q)) (fun l k q => ws (ix3 l k q))
          (fun l q => bs (ix2 l q)) (fun k => h (ix2 p k)) (fun k => z (ix2 p k)) := by
  unfold chunk Cert.Flow.chain
  rw [shapeCast_self]
  rw [reflectV_row, reflectV_row, reflectV_row, reflectV_row, dense3_row, dense2_row, dense1_row, dense0_row]

end Cert.KernelIdeal.Body

end
-- ==== Proof.Pieces.lean ====
/-
  What the body leaves in the output block: one function of the block's loads.

  The body writes the [4096, 256] output block as four stores of [1024, 256] rows at row offsets 0, 1024, 2048 and
  3072. Each stored value is the same function (Body.lean's `chunk`) of the four resident operands and of the rows
  of the `h` block and the `z` block at the store's own row offset: the printed text differs from chunk to chunk only
  in where its long sequence of operations is cut into named parts, so each equation holds by unfolding. At the
  extended reals row p of a chunk's value is the specification's chain of rows p of its two loads, and a load at row
  offset r reads rows r + p of its block; so the four stores are four row bands of ONE function of the block's index
  — row y of the result is the chain of row y of the two input blocks — and the block read back is that function.
-/
import proofs.«142471_j44659069944367_2_alg».proof.Proof.Gen.KernelIdeal.Frame
import proofs.«142471_j44659069944367_2_alg».proof.Proof.Body
import Idealize.ShloMosaic.Lib.Pipeline.Value
import Idealize.ShloMosaic.Lib.Tactic

set_option maxRecDepth 16384

noncomputable section

open scoped BigOperators

namespace Cert.KernelIdeal.Pieces

open Idealize.ShloMosaic Idealize.ShloMosaic.ValueIdx Idealize.ShloMosaic.TcCoe Idealize.SL.Sem Idealize.ShloMosaic.Tactic
open Cert.KernelIdeal Cert.KernelIdeal.Gen Cert.KernelIdeal.Body

section Generic
variable {F : FTy → Type} [FloatOps F]

/-- The value stored at rows 0 … 1023 is the chunk function of the loads at row offset 0, -/
theorem stored0 (L2 : Vec F S300x256 .bf16) (L3 : Vec F S256 .f32) (L4 : Vec F S3x256x256 .bf16) (L5 : Vec F S3x256 .f32)
    (H : Vec F S1024x300 .f32) (Z : Vec F S1024x256 .f32) :
    k0_pay11 (k0_pay9 (k0_pay3 L4) L5 (k0_pay5 L2 L3 H Z) (k0_pay6 L2 L3 L4 L5 H) (k0_pay7 L2 L3 L4 L5 H Z))
        (k0_pay10 (k0_pay3 L4) L5 (k0_pay5 L2 L3 H Z) (k0_pay6 L2 L3 L4 L5 H) (k0_pay7 L2 L3 L4 L5 H Z))
      = chunk L2 L3 L4 L5 H Z := rfl

/-- at rows 1024 … 2047 of the loads at row offset 1024, -/
theorem stored1 (L2 : Vec F S300x256 .bf16) (L3 : Vec F S256 .f32) (L4 : Vec F S3x256x256 .bf16) (L5 : Vec F S3x256 .f32)
    (H : Vec F S1024x300 .f32) (Z : Vec F S1024x256 .f32) :
    k0_pay16 (k0_pay3 L4) L5 (k0_pay13 (k0_pay2 L2) L3 H Z) (k0_pay14 (k0_pay2 L2) L3 (k0_pay3 L4) L5 H)
        (k0_pay15 (k0_pay2 L2) L3 (k0_pay3 L4) L5 H Z)
      = chunk L2 L3 L4 L5 H Z := rfl

/-- at rows 2048 … 3071 of the loads at row offset 2048, -/
theorem stored2 (L2 : Vec F S300x256 .bf16) (L3 : Vec F S256 .f32) (L4 : Vec F S3x256x256 .bf16) (L5 : Vec F S3x256 .f32)
    (H : Vec F S1024x300 .f32) (Z : Vec F S1024x256 .f32) :
    k0_pay22 (k0_pay3 L4) L5 (k0_pay19 (k0_pay2 L2) L3 (k0_pay3 L4) L5 H Z) (k0_pay20 (k0_pay2 L2) L3 (k0_pay3 L4) L5 H)
        (k0_pay21 L5)
      = chunk L2 L3 L4 L5 H Z := rfl

/-- and at rows 3072 … 4095 of the loads at row offset 3072. -/
theorem stored3 (L2 : Vec F S300x256 .bf16) (L3 : Vec F S256 .f32) (L4 : Vec F S3x256x256 .bf16) (L5 : Vec F S3x256 .f32)
    (H : Vec F S1024x300 .f32) (Z : Vec F S1024x256 .f32) :
    k0_pay1 (k0_pay3 L4) L5 (k0_pay27 (k0_pay3 L4) L5 Z (k0_pay23 (k0_pay2 L2) H) (k0_pay24 L3))
        (k0_pay28 (k0_pay3 L4) L5 (k0_pay23 (k0_pay2 L2) H) (k0_pay24 L3))
        (k0_pay29 (k0_pay3 L4) L5 Z (k0_pay23 (k0_pay2 L2) H) (k0_pay24 L3))
        (k0_pay30 (k0_pay3 L4) L5 (k0_pay23 (k0_pay2 L2) H) (k0_pay24 L3))
        (FloatOps.ofBits .f32 0x40000000#32)
      = chunk L2 L3 L4 L5 H Z := rfl

end Generic

/-! ## The block as one function -/

/-- Entry (y, q) of the output block: the specification's chain of row y of the `h` block and of the `z` block, the
    resident weights indexed as stored (input, output) and (layer, input, output). -/
def rowOut (x0 : Vec Ideal S4096x256 .f32) (x1 : Vec Ideal S4096x300 .f32) (x2 : Vec Ideal S300x256 .bf16)
    (x3 : Vec Ideal S256 .f32) (x4 : Vec Ideal S3x256x256 .bf16) (x5 : Vec Ideal S3x256 .f32) (y : Fin 4096) (q : Fin 256) : EReal :=
  Cert.Flow.chain (fun k q => x2 (ix2 k q)) (fun q => x3 (ix1 q)) (fun l k q => x4 (ix3 l k q)) (fun l q => x5 (ix2 l q))
    (fun k => x1 (ix2 y k)) (fun k => x0 (ix2 y k)) q

/-- The output block after the body. -/
def blockOut (x0 : Vec Ideal S4096x256 .f32) (x1 : Vec Ideal S4096x300 .f32) (x2 : Vec Ideal S300x256 .bf16)
    (x3 : Vec Ideal S256 .f32) (x4 : Vec Ideal S3x256x256 .bf16) (x5 : Vec Ideal S3x256 .f32) : Vec Ideal S4096x256 .f32 :=
  fun y => rowOut x0 x1 x2 x3 x4 x5 (y 0) (y 1)

/-- One store is one band of rows of that function: the chunk function of the loads at row offset r, at (p, q), is the
    block function at (r + p, q). -/
theorem band_eq (off : Fin 2 → ℕ) (r : ℕ) (hoff : off = ![r, 0])
    (inbO : ∀ a, off a + (![1024, 256] : Fin 2 → ℕ) a ≤ S4096x256.size a)
    (inbZ : ∀ a, off a + S1024x256.size a ≤ S4096x256.size a) (inbH : ∀ a, off a + S1024x300.size a ≤ S4096x300.size a)
    (x0 : Vec Ideal S4096x256 .f32) (x1 : Vec Ideal S4096x300 .f32) (x2 : Vec Ideal S300x256 .bf16)
    (x3 : Vec Ideal S256 .f32) (x4 : Vec Ideal S3x256x256 .bf16) (x5 : Vec Ideal S3x256 .f32)
    (x : (Rect.unit (s := S4096x256) off ![1024, 256] inbO).shape.Idx) :
    chunk x2 x3 x4 x5 (View.ld x1 (Rect.unit (s := S4096x300) off S1024x300.size inbH))
        (View.ld x0 (Rect.unit (s := S4096x256) off S1024x256.size inbZ)) x
      = blockOut x0 x1 x2 x3 x4 x5 ((Rect.unit (s := S4096x256) off ![1024, 256] inbO).emb x) := by
  subst hoff
  obtain ⟨p, q, rfl⟩ : ∃ (p : Fin 1024) (q : Fin 256), x = ix2 p q := ⟨x 0, x 1, eq_ix2 x⟩
  refine (congrFun (chunk_row x2 x3 x4 x5 _ _ p) q).trans ?_
  unfold blockOut rowOut
  have eH : (fun k : Fin 300 => View.ld x1 (Rect.unit (s := S4096x300) ![r, 0] S1024x300.size inbH) (ix2 p k))
      = fun k => x1 (ix2 ((Rect.unit (s := S4096x256) ![r, 0] ![1024, 256] inbO).emb (ix2 p q) 0) k) :=
    funext fun k => congrArg x1 (funext fun a => Fin.ext (by
      match a with
      | ⟨0, _⟩ => rfl
      | ⟨1, _⟩ => show 0 + 1 * k.val = k.val; omega))
  have eZ : (fun k : Fin 256 => View.ld x0 (Rect.unit (s := S4096x256) ![r, 0] S1024x256.size inbZ) (ix2 p k))
      = fun k => x0 (ix2 ((Rect.unit (s := S4096x256) ![r, 0] ![1024, 256] inbO).emb (ix2 p q) 0) k) :=
    funext fun k => congrArg x0 (funext fun a => Fin.ext (by
      match a with
      | ⟨0, _⟩ => rfl
      | ⟨1, _⟩ => show 0 + 1 * k.val = k.val; omega))
  have eq : q = (Rect.unit (s := S4096x256) ![r, 0] ![1024, 256] inbO).emb (ix2 p q) 1 :=
    Fin.ext (by show q.val = 0 + 1 * q.val; omega)
  rw [eH, eZ]
  exact congrArg _ eq

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- The output block the run leaves is the block function of the input blocks and the resident operands. -/
theorem out_eq (c : Dev nD) (i : grid0.Coords) (arg1 : Memref sig .tc .vmem S4096x256 .f32) (harg1 : arg1.IsWhole) (arg2 : Memref sig .tc .vmem S4096x300 .f32) (harg2 : arg2.IsWhole) (arg3 : Memref sig .tc .vmem S300x256 .bf16) (harg3 : arg3.IsWhole) (arg4 : Memref sig .tc .vmem S256 .f32) (harg4 : arg4.IsWhole) (arg5 : Memref sig .tc .vmem S3x256x256 .bf16) (harg5 : arg5.IsWhole) (arg6 : Memref sig .tc .vmem S3x256 .f32) (harg6 : arg6.IsWhole) (arg7 : Memref sig .tc .vmem S4096x256 .f32) (harg7 : arg7.IsWhole)
    (x0 : Vec Ideal S4096x256 .f32) (x1 : Vec Ideal S4096x300 .f32) (x2 : Vec Ideal S300x256 .bf16) (x3 : Vec Ideal S256 .f32) (x4 : Vec Ideal S3x256x256 .bf16) (x5 : Vec Ideal S3x256 .f32) :
    out0_A_6 (F := Ideal) c i arg1 harg1 arg2 harg2 arg3 harg3 arg4 harg4 arg5 harg5 arg6 harg6 arg7 harg7 x0 x1 x2 x3 x4 x5 = blockOut x0 x1 x2 x3 x4 x5 := by
  unfold out0_A_6
  rw [View.read_writes_eq_canon _ _ _ (cover0_A_6 (F := Ideal) c i arg1 harg1 arg2 harg2 arg3 harg3 arg4 harg4 arg5 harg5 arg6 harg6 arg7 harg7 x0 x1 x2 x3 x4 x5)]
  funext y
  refine View.canon_apply_of_pieces (blockOut x0 x1 x2 x3 x4 x5) _ ?_ y (cover0_A_6 (F := Ideal) c i arg1 harg1 arg2 harg2 arg3 harg3 arg4 harg4 arg5 harg5 arg6 harg6 arg7 harg7 x0 x1 x2 x3 x4 x5 y)
  unfold kernelRun0_A
  dsimp only
  sl_unfold_words
  simp only [View.readAt_eq_ld, harg1.read_unread, harg2.read_unread, harg3.read_unread, harg4.read_unread,
    harg5.read_unread, harg6.read_unread, View.ld_unit_zero (S := S300x256) hz2, View.ld_unit_zero (S := S256) hz1,
    View.ld_unit_zero (S := S3x256x256) hz3, View.ld_unit_zero (S := S3x256) hz2]
  refine List.forall_mem_cons.2 ⟨fun x => ?_, List.forall_mem_cons.2 ⟨fun x => ?_, List.forall_mem_cons.2 ⟨fun x => ?_,
    List.forall_mem_cons.2 ⟨fun x => ?_, fun _ h => absurd h (List.not_mem_nil)⟩⟩⟩⟩
  · exact (congrFun (stored3 (F := Ideal) x2 x3 x4 x5 _ _) x).trans (band_eq ![3072, 0] 3072 rfl (by decide) (by decide) (by decide) x0 x1 x2 x3 x4 x5 x)
  · exact (congrFun (stored2 (F := Ideal) x2 x3 x4 x5 _ _) x).trans (band_eq ![2048, 0] 2048 rfl (by decide) (by decide) (by decide) x0 x1 x2 x3 x4 x5 x)
  · exact (congrFun (stored1 (F := Ideal) x2 x3 x4 x5 _ _) x).trans (band_eq ![1024, 0] 1024 rfl (by decide) (by decide) (by decide) x0 x1 x2 x3 x4 x5 x)
  · exact (congrFun (stored0 (F := Ideal) x2 x3 x4 x5 _ _) x).trans (band_eq ![0, 0] 0 rfl (by decide) (by decide) (by decide) x0 x1 x2 x3 x4 x5 x)

end Cert.KernelIdeal.Pieces

end
-- ==== Proof.KernelValue.lean ====
/-
  The kernel's result array is the specification's function of its arguments.

  The grid has 16 points. At point t the two batched windows (`z`, `h`) and the output window are at block t of their
  arrays — rows 4096·t … 4096·t + 4095 —, and the four resident windows are the whole of their arrays: the bias
  vector and the bias stack as launched, and the two weight arrays as the operations before the call left them, the
  weight matrix transposed and the weight stack transposed layer by layer (then rounded to bf16, the identity at the
  extended reals). So entry (k, q) of the resident matrix is entry (q, k) of the weight argument, entry (l, k, q) of the
  resident stack is entry (l, q, k) of the stack argument, and what point t writes back — row y of it the chain of
  row y of the two input blocks — is block t of the specification's result array. The 16 blocks cover the array: row r
  is in block r / 4096.
-/
import proofs.«142471_j44659069944367_2_alg».proof.Proof.Gen.KernelIdeal.Value
import proofs.«142471_j44659069944367_2_alg».proof.Proof.Pieces
import Idealize.ShloMosaic.Lib.Pipeline.Value
import Idealize.ShloMosaic.Lib.StableHlo.Run
import Idealize.ShloMosaic.Lib.ValueLayout

set_option maxRecDepth 16384

noncomputable section

namespace Cert.KernelIdeal.FlowValue

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The result array: the specification's function of the six argument arrays as launched. -/
def G (c : Dev nD) : Buf (Elt Ideal) ((c : Thread nD τ).loc main_v4) :=
  Cert.Flow.result (R := 65536) (n := 256) (K := 300)
    (m ((c : Thread nD τ).loc main_arg0) : S65536x256.Idx → EReal) (m ((c : Thread nD τ).loc main_arg1) : S65536x300.Idx → EReal)
    (m ((c : Thread nD τ).loc main_arg2) : S256x300.Idx → EReal) (m ((c : Thread nD τ).loc main_arg3) : S256.Idx → EReal)
    (m ((c : Thread nD τ).loc main_arg4) : S3x256x256.Idx → EReal) (m ((c : Thread nD τ).loc main_arg5) : S3x256.Idx → EReal)

/-! ## The two weight arrays as the call finds them -/

/-- The resident weight matrix is the weight argument transposed (and rounded). -/
theorem V_w0 (c : Dev nD) : (V m c main_v1 : S300x256.Idx → EReal)
    = truncf (F := Ideal) .bf16 (transpose S300x256 [1, 0] (m ((c : Thread nD τ).loc main_arg2)) Facts₀.transposes_S256x300_S300x256_1_0) Facts₀.bitsLt_bf16_f32 := by
  dsimp only [Gen.V, Gen.hostOps0]
  after_results

/-- The resident weight stack is the stack argument transposed layer by layer (and rounded). -/
theorem V_ws (c : Dev nD) : (V m c main_v3 : S3x256x256.Idx → EReal)
    = truncf (F := Ideal) .bf16 (transpose S3x256x256 [0, 2, 1] (m ((c : Thread nD τ).loc main_arg4)) Facts₀.transposes_S3x256x256_S3x256x256_0_2_1) Facts₀.bitsLt_bf16_f32 := by
  dsimp only [Gen.V, Gen.hostOps0]
  after_results

theorem V_w0_apply (c : Dev nD) (k : Fin 300) (q : Fin 256) :
    (V m c main_v1 : S300x256.Idx → EReal) (ix2 k q) = (m ((c : Thread nD τ).loc main_arg2) : S256x300.Idx → EReal) (ix2 q k) := by
  rw [V_w0]
  exact transpose_ix2_apply (a := 256) (b := 300) _ Facts₀.transposes_S256x300_S300x256_1_0 k q

theorem V_ws_apply (c : Dev nD) (l : Fin 3) (k q : Fin 256) :
    (V m c main_v3 : S3x256x256.Idx → EReal) (ix3 l k q) = (m ((c : Thread nD τ).loc main_arg4) : S3x256x256.Idx → EReal) (ix3 l q k) := by
  rw [V_ws]
  exact transpose_ix3_021_apply (m := 3) (a := 256) (b := 256) _ Facts₀.transposes_S3x256x256_S3x256x256_0_2_1 l k q

/-! ## The index maps, decided over the 16 points -/

theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block read where the output's block says -/

section Reads
variable (c : Dev nD) (t : Fin cfg0.N)

/-- Row y of the `z` block is row y of the output block's rows of `z`. -/
theorem read_z (y : Fin 4096) (q k : Fin 256) :
    (iblk m c 0 t : S4096x256.Idx → EReal) (ix2 y k)
      = (m ((c : Thread nD τ).loc main_arg0) : S65536x256.Idx → EReal) (ix2 (((cfg0.win 6).blk t).view.emb (ix2 y q) 0) k) := by
  obtain ⟨e0, e1, -⟩ := idx_facts t
  show V m c main_arg0 (((cfg0.win 0).blk t).view.emb (ix2 y k)) = _
  rw [V_main_arg0]
  refine congrArg _ (funext fun a => Fin.ext ?_)
  match a with
  | ⟨0, _⟩ => show win0_0.index t (0 : Fin 2) * 4096 + 1 * y.val = win0_6.index t (0 : Fin 2) * 4096 + 1 * y.val; rw [e0]
  | ⟨1, _⟩ => show win0_0.index t (1 : Fin 2) * 256 + 1 * k.val = k.val; rw [e1]; omega

/-- Row y of the `h` block likewise. -/
theorem read_h (y : Fin 4096) (q : Fin 256) (k : Fin 300) :
    (iblk m c 1 t : S4096x300.Idx → EReal) (ix2 y k)
      = (m ((c : Thread nD τ).loc main_arg1) : S65536x300.Idx → EReal) (ix2 (((cfg0.win 6).blk t).view.emb (ix2 y q) 0) k) := by
  obtain ⟨-, -, e0, e1, -⟩ := idx_facts t
  show V m c main_arg1 (((cfg0.win 1).blk t).view.emb (ix2 y k)) = _
  rw [V_main_arg1]
  refine congrArg _ (funext fun a => Fin.ext ?_)
  match a with
  | ⟨0, _⟩ => show win0_1.index t (0 : Fin 2) * 4096 + 1 * y.val = win0_6.index t (0 : Fin 2) * 4096 + 1 * y.val; rw [e0]
  | ⟨1, _⟩ => show win0_1.index t (1 : Fin 2) * 300 + 1 * k.val = k.val; rw [e1]; omega

/-- The resident weight matrix, entry (k, q): the weight argument's entry (q, k). -/
theorem read_w0 (k : Fin 300) (q : Fin 256) :
    (iblk m c 2 t : S300x256.Idx → EReal) (ix2 k q) = (m ((c : Thread nD τ).loc main_arg2) : S256x300.Idx → EReal) (ix2 q k) := by
  obtain ⟨-, -, -, -, e0, e1, -⟩ := idx_facts t
  show (V m c main_v1 : S300x256.Idx → EReal) (((cfg0.win 2).blk t).view.emb (ix2 k q)) = _
  refine Eq.trans (congrArg _ (funext fun a => Fin.ext ?_)) (V_w0_apply m c k q)
  match a with
  | ⟨0, _⟩ => show win0_2.index t (0 : Fin 2) * 300 + 1 * k.val = k.val; rw [e0]; omega
  | ⟨1, _⟩ => show win0_2.index t (1 : Fin 2) * 256 + 1 * q.val = q.val; rw [e1]; omega

/-- The resident bias vector is the bias argument. -/
theorem read_b0 (q : Fin 256) :
    (iblk m c 3 t : S256.Idx → EReal) (ix1 q) = (m ((c : Thread nD τ).loc main_arg3) : S256.Idx → EReal) (ix1 q) := by
  obtain ⟨-, -, -, -, -, -, e0, -⟩ := idx_facts t
  show V m c main_arg3 (((cfg0.win 3).blk t).view.emb (ix1 q)) = _
  rw [V_main_arg3]
  refine congrArg _ (funext fun a => Fin.ext ?_)
  match a with
  | ⟨0, _⟩ => show win0_3.index t (0 : Fin 1) * 256 + 1 * q.val = q.val; rw [e0]; omega

/-- The resident weight stack, entry (l, k, q): the stack argument's entry (l, q, k). -/
theorem read_ws (l : Fin 3) (k q : Fin 256) :
    (iblk m c 4 t : S3x256x256.Idx → EReal) (ix3 l k q) = (m ((c : Thread nD τ).loc main_arg4) : S3x256x256.Idx → EReal) (ix3 l q k) := by
  obtain ⟨-, -, -, -, -, -, -, e0, e1, e2, -⟩ := idx_facts t
  show (V m c main_v3 : S3x256x256.Idx → EReal) (((cfg0.win 4).blk t).view.emb (ix3 l k q)) = _
  refine Eq.trans (congrArg _ (funext fun a => Fin.ext ?_)) (V_ws_apply m c l k q)
  match a with
  | ⟨0, _⟩ => show win0_4.index t (0 : Fin 3) * 3 + 1 * l.val = l.val; rw [e0]; omega
  | ⟨1, _⟩ => show win0_4.index t (1 : Fin 3) * 256 + 1 * k.val = k.val; rw [e1]; omega
  | ⟨2, _⟩ => show win0_4.index t (2 : Fin 3) * 256 + 1 * q.val = q.val; rw [e2]; omega

/-- The resident bias stack is the bias-stack argument. -/
theorem read_bs (l : Fin 3) (q : Fin 256) :
    (iblk m c 5 t : S3x256.Idx → EReal) (ix2 l q) = (m ((c : Thread nD τ).loc main_arg5) : S3x256.Idx → EReal) (ix2 l q) := by
  obtain ⟨-, -, -, -, -, -, -, -, -, -, e0, e1, -⟩ := idx_facts t
  show V m c main_arg5 (((cfg0.win 5).blk t).view.emb (ix2 l q)) = _
  rw [V_main_arg5]
  refine congrArg _ (funext fun a => Fin.ext ?_)
  match a with
  | ⟨0, _⟩ => show win0_5.index t (0 : Fin 2) * 3 + 1 * l.val = l.val; rw [e0]; omega
  | ⟨1, _⟩ => show win0_5.index t (1 : Fin 2) * 256 + 1 * q.val = q.val; rw [e1]; omega

end Reads

/-! ## What a point writes back, the cover, the array -/

/-- What point t writes back is block t of the specification's result array. -/
theorem flushed_eq (c : Dev nD) (t : Fin cfg0.N) :
    (dats m 0 c).flushed 6 t = ((cfg0.win 6).blk t).view.read (Elt Ideal) (G m c) := by
  rw [Cert.KernelIdeal.Value.flushed6_A, Cert.KernelIdeal.Pieces.out_eq]
  funext j
  obtain ⟨y, q, rfl⟩ : ∃ (y : Fin 4096) (q : Fin 256), j = ix2 y q := ⟨j 0, j 1, eq_ix2 j⟩
  show Cert.Flow.chain (fun k q => (iblk m c 2 t : S300x256.Idx → EReal) (ix2 k q)) (fun q => (iblk m c 3 t : S256.Idx → EReal) (ix1 q))
      (fun l k q => (iblk m c 4 t : S3x256x256.Idx → EReal) (ix3 l k q)) (fun l q => (iblk m c 5 t : S3x256.Idx → EReal) (ix2 l q))
      (fun k => (iblk m c 1 t : S4096x300.Idx → EReal) (ix2 y k)) (fun k => (iblk m c 0 t : S4096x256.Idx → EReal) (ix2 y k)) q
    = Cert.Flow.chain (fun k q => (m ((c : Thread nD τ).loc main_arg2) : S256x300.Idx → EReal) (ix2 q k))
      (fun q => (m ((c : Thread nD τ).loc main_arg3) : S256.Idx → EReal) (ix1 q))
      (fun l k q => (m ((c : Thread nD τ).loc main_arg4) : S3x256x256.Idx → EReal) (ix3 l q k))
      (fun l q => (m ((c : Thread nD τ).loc main_arg5) : S3x256.Idx → EReal) (ix2 l q))
      (fun k => (m ((c : Thread nD τ).loc main_arg1) : S65536x300.Idx → EReal) (ix2 (((cfg0.win 6).blk t).view.emb (ix2 y q) 0) k))
      (fun k => (m ((c : Thread nD τ).loc main_arg0) : S65536x256.Idx → EReal) (ix2 (((cfg0.win 6).blk t).view.emb (ix2 y q) 0) k))
      (((cfg0.win 6).blk t).view.emb (ix2 y q) 1)
  have e2 := funext fun k : Fin 300 => funext fun q : Fin 256 => read_w0 m c t k q
  have e3 := funext fun q : Fin 256 => read_b0 m c t q
  have e4 := funext fun l : Fin 3 => funext fun k : Fin 256 => funext fun q : Fin 256 => read_ws m c t l k q
  have e5 := funext fun l : Fin 3 => funext fun q : Fin 256 => read_bs m c t l q
  have e1 := funext fun k : Fin 300 => read_h m c t y q k
  have e0 := funext fun k : Fin 256 => read_z m c t y q k
  have eq : q = ((cfg0.win 6).blk t).view.emb (ix2 y q) 1 := Fin.ext (by
    obtain ⟨-, -, -, -, -, -, -, -, -, -, -, -, -, e⟩ := idx_facts t
    show q.val = win0_6.index t (1 : Fin 2) * 256 + 1 * q.val; rw [e]; omega)
  rw [e2, e3, e4, e5, e1, e0]
  exact congrArg _ eq

/-- An index of the array is in point t's block iff each coordinate is in the block's range on its axis. -/
theorem mem_blk (t : Fin cfg0.N) (i : S65536x256.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v4).slice (win0_6.rect t)).set ↔ _
  rw [View.set_slice_whole, Rect.mem_set_unit]
  exact Iff.rfl

/-- The array after the run is the specification's result array: row r is written back by point r / 4096. -/
theorem final (c : Dev nD) : (dats m 0 c).arrAt 6 cfg0.N = G m c := by
  refine (dats m 0 c).arrAt_eq_of_cover 6 (G m c) (fun t _ => flushed_eq m c t) fun i => ?_
  have hN : cfg0.N = 16 := N_0
  have hi0 : (i 0).val < 65536 := (i 0).isLt
  have hi1 : (i 1).val < 256 := (i 1).isLt
  refine ⟨⟨(i 0).val / 4096, by rw [hN]; omega⟩, flush0_6 _, ?_⟩
  rw [mem_blk]
  obtain ⟨-, -, -, -, -, -, -, -, -, -, -, -, e0, e1⟩ := idx_facts ⟨(i 0).val / 4096, by rw [hN]; omega⟩
  intro a
  match a with
  | ⟨0, _⟩ =>
    show win0_6.index _ (0 : Fin 2) * 4096 ≤ (i 0).val ∧ (i 0).val < win0_6.index _ (0 : Fin 2) * 4096 + 4096
    rw [e0]; show (i 0).val / 4096 * 4096 ≤ (i 0).val ∧ (i 0).val < (i 0).val / 4096 * 4096 + 4096; omega
  | ⟨1, _⟩ =>
    show win0_6.index _ (1 : Fin 2) * 256 ≤ (i 1).val ∧ (i 1).val < win0_6.index _ (1 : Fin 2) * 256 + 256
    rw [e1]; omega

/-! ## The run, read -/

/-- The frame run re-posted: the result array at the specification's function of the arguments, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.FlowValue

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«142471_j44659069944367_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefValue.lean ====
/-
  The reference's result array is the specification's function of its arguments.

  The reference computes on whole [65536, ·] arrays what the specification says of one row: a dense layer is a
  `dot_general` against the transposed weights (layer l of the weight stack cut out, recast as a matrix and transposed)
  plus the bias vector made a row and repeated down the rows; a reflection is `z − (2·v)·((Σ v·z) / (Σ v·v))`, the two row
  sums made columns, divided, and repeated along the row. The two definitions below spell a layer and a reflection once;
  each of the generated stage definitions of the run is one of them applied to earlier stages, by unfolding; and at the
  extended reals row r of a layer or of a reflection is the specification's layer or reflection of row r of its operands.
-/
import proofs.«142471_j44659069944367_2_alg».proof.Proof.Gen.ReferenceIdeal.Read
import proofs.«142471_j44659069944367_2_alg».proof.Proof.Spec
import proofs.«142471_j44659069944367_2_alg».proof.Proof.LibEntryReads
import proofs.«142471_j44659069944367_2_alg».proof.Proof.LibHostReads
import proofs.«142471_j44659069944367_2_alg».proof.Proof.LibStackLayer
import Idealize.ShloMosaic.Lib.ValueLayout

noncomputable section

open scoped BigOperators

namespace Cert.ReferenceIdeal.FlowRef

open Idealize.ShloMosaic Idealize.ShloMosaic.ValueIdx Cert.ReferenceIdeal Cert.ReferenceIdeal.Read

section Vocabulary
variable {F : FTy → Type} [FloatOps F]

/-- The reflection of every row of `Z` by the same row of `V`, as the host computes it. -/
def hReflect (V Z : FVec F S65536x256 .f32) : FVec F S65536x256 .f32 :=
  subf Z (mulf (mulf (broadcastInDim S65536x256 ![] Facts₀.bcast_S_S65536x256 (constant S_ .f32 0x40000000#32)) V)
    (broadcastInDim S65536x256 ![0, 1] Facts₀.bcast_S65536x1_S65536x256_0_1
      (Host.divf
        (broadcastInDim S65536x1 ![0] Facts₀.bcast_S65536_S65536x1_0
          (Host.reduceAdd (mulf V Z) (constant S_ .f32 0x00000000#32) Facts₀.reducesTo_S65536x256_S65536_d1 Facts₀.h_S_))
        (broadcastInDim S65536x1 ![0] Facts₀.bcast_S65536_S65536x1_0
          (Host.reduceAdd (mulf V V) (constant S_ .f32 0x00000000#32) Facts₀.reducesTo_S65536x256_S65536_d1 Facts₀.h_S_)))))

/-- A dense layer of every row of `V` against one layer of the weight stack, transposed, plus one row of the bias stack;
    the layer is named by the two slices' offsets. -/
def hDense (o3 : Fin S3x256x256.rank → ℕ) (h3 : S3x256x256.Slices o3 S1x256x256) (o2 : Fin S3x256.rank → ℕ)
    (h2 : S3x256.Slices o2 S1x256) (x4 : FVec F S3x256x256 .f32) (x5 : FVec F S3x256 .f32)
    (V : FVec F S65536x256 .f32) : FVec F S65536x256 .f32 :=
  addf (Host.dotGeneral dot_S65536x256_S256x256_S65536x256_1_0_0_1_n_n none V
      (transpose S256x256 [1, 0] (shapeCast S256x256 (extractStridedSlice S1x256x256 o3 x4 h3) Facts₀.shapeCasts_S1x256x256_S256x256)
        Facts₀.transposes_S256x256_S256x256_1_0))
    (broadcastInDim S65536x256 ![0, 1] Facts₀.bcast_S1x256_S65536x256_0_1
      (broadcastInDim S1x256 ![1] Facts₀.bcast_S256_S1x256_1
        (shapeCast S256 (extractStridedSlice S1x256 o2 x5 h2) Facts₀.shapeCasts_S1x256_S256)))

/-! ### The run's stages are these, by unfolding -/

theorem v16_eq (x0 : FVec F S65536x256 .f32) (x1 : FVec F S65536x300 .f32) (x2 : FVec F S256x300 .f32) (x3 : FVec F S256 .f32) (x4 : FVec F S3x256x256 .f32) (x5 : FVec F S3x256 .f32) :
    val_main_v16 (F := F) x0 x1 x2 x3 = hReflect (val_main_v4 (F := F) x1 x2 x3) x0 := rfl

theorem v25_eq (x0 : FVec F S65536x256 .f32) (x1 : FVec F S65536x300 .f32) (x2 : FVec F S256x300 .f32) (x3 : FVec F S256 .f32) (x4 : FVec F S3x256x256 .f32) (x5 : FVec F S3x256 .f32) :
    val_main_v25 (F := F) x1 x2 x3 x4 x5
      = hDense ![0, 0, 0] Facts₀.slices_S3x256x256_S1x256x256_0_0_0 ![0, 0] Facts₀.slices_S3x256_S1x256_0_0 x4 x5
          (val_main_v4 (F := F) x1 x2 x3) := rfl

theorem v37_eq (x0 : FVec F S65536x256 .f32) (x1 : FVec F S65536x300 .f32) (x2 : FVec F S256x300 .f32) (x3 : FVec F S256 .f32) (x4 : FVec F S3x256x256 .f32) (x5 : FVec F S3x256 .f32) :
    val_main_v37 (F := F) x0 x1 x2 x3 x4 x5
      = hReflect (val_main_v25 (F := F) x1 x2 x3 x4 x5) (val_main_v16 (F := F) x0 x1 x2 x3) := rfl

theorem v46_eq (x0 : FVec F S65536x256 .f32) (x1 : FVec F S65536x300 .f32) (x2 : FVec F S256x300 .f32) (x3 : FVec F S256 .f32) (x4 : FVec F S3x256x256 .f32) (x5 : FVec F S3x256 .f32) :
    val_main_v46 (F := F) x1 x2 x3 x4 x5
      = hDense ![1, 0, 0] Facts₀.slices_S3x256x256_S1x256x256_1_0_0 ![1, 0] Facts₀.slices_S3x256_S1x256_1_0 x4 x5
          (val_main_v25 (F := F) x1 x2 x3 x4 x5) := rfl

theorem v58_eq (x0 : FVec F S65536x256 .f32) (x1 : FVec F S65536x300 .f32) (x2 : FVec F S256x300 .f32) (x3 : FVec F S256 .f32) (x4 : FVec F S3x256x256 .f32) (x5 : FVec F S3x256 .f32) :
    val_main_v58 (F := F) x0 x1 x2 x3 x4 x5
      = hReflect (val_main_v46 (F := F) x1 x2 x3 x4 x5) (val_main_v37 (F := F) x0 x1 x2 x3 x4 x5) := rfl

theorem v67_eq (x0 : FVec F S65536x256 .f32) (x1 : FVec F S65536x300 .f32) (x2 : FVec F S256x300 .f32) (x3 : FVec F S256 .f32) (x4 : FVec F S3x256x256 .f32) (x5 : FVec F S3x256 .f32) :
    val_main_v67 (F := F) x1 x2 x3 x4 x5
      = hDense ![2, 0, 0] Facts₀.slices_S3x256x256_S1x256x256_2_0_0 ![2, 0] Facts₀.slices_S3x256_S1x256_2_0 x4 x5
          (val_main_v46 (F := F) x1 x2 x3 x4 x5) := rfl

theorem v79_eq (x0 : FVec F S65536x256 .f32) (x1 : FVec F S65536x300 .f32) (x2 : FVec F S256x300 .f32) (x3 : FVec F S256 .f32) (x4 : FVec F S3x256x256 .f32) (x5 : FVec F S3x256 .f32) :
    val_main_v79 (F := F) x0 x1 x2 x3 x4 x5
      = hReflect (val_main_v67 (F := F) x1 x2 x3 x4 x5) (val_main_v58 (F := F) x0 x1 x2 x3 x4 x5) := rfl

end Vocabulary

/-! ## At the extended reals, row by row -/

/-- Row r of the first layer. -/
theorem v4_row (x1 : FVec Ideal S65536x300 .f32) (x2 : FVec Ideal S256x300 .f32) (x3 : FVec Ideal S256 .f32) (r : Fin 65536) :
    (fun q : Fin 256 => val_main_v4 (F := Ideal) x1 x2 x3 (ix2 r q))
      = Cert.Flow.affine (fun k q => x2 (ix2 q k)) (fun q => x3 (ix1 q)) (fun k => x1 (ix2 r k)) := by
  funext q
  unfold val_main_v4 val_main_v1 val_main_v3 val_main_v2 val_main_v0
  refine (addf_apply _ _ _).trans ?_
  refine congrArg₂ (· + ·) ?_ (Cert.Lib.bcast_vec_rows_apply x3 _ _ r q)
  refine (Cert.Lib.dotGeneral_plain_apply _ Facts₀.dot_S65536x300_S300x256_S65536x256_1_0_0_1_n_n_wf rfl _ _ r q).trans ?_
  exact Finset.sum_congr rfl fun k _ =>
    congrArg (x1 (ix2 r k) * ·) (transpose_ix2_apply (a := 256) (b := 300) x2 _ k q)

/-- Row r of a later layer. -/
theorem hDense_row (l : Fin 3) (o3 : Fin S3x256x256.rank → ℕ) (ho3 : o3 = ![l.val, 0, 0])
    (h3 : S3x256x256.Slices o3 S1x256x256) (o2 : Fin S3x256.rank → ℕ) (ho2 : o2 = ![l.val, 0])
    (h2 : S3x256.Slices o2 S1x256) (x4 : FVec Ideal S3x256x256 .f32) (x5 : FVec Ideal S3x256 .f32)
    (V : FVec Ideal S65536x256 .f32) (r : Fin 65536) :
    (fun q : Fin 256 => hDense o3 h3 o2 h2 x4 x5 V (ix2 r q))
      = Cert.Flow.affine (fun k q => x4 (ix3 l q k)) (fun q => x5 (ix2 l q)) (fun k => V (ix2 r k)) := by
  funext q
  unfold hDense
  refine (addf_apply _ _ _).trans ?_
  refine congrArg₂ (· + ·) ?_ ?_
  · refine (Cert.Lib.dotGeneral_plain_apply _ Facts₀.dot_S65536x256_S256x256_S65536x256_1_0_0_1_n_n_wf rfl _ _ r q).trans ?_
    refine Finset.sum_congr rfl fun k _ => congrArg (V (ix2 r k) * ·) ?_
    exact (transpose_ix2_apply (a := 256) (b := 256) _ _ k q).trans (Cert.Lib.stackLayer_apply x4 o3 l ho3 h3 _ q k)
  · exact (Cert.Lib.bcast_vec_rows_apply _ _ _ r q).trans (Cert.Lib.stackRow_apply x5 o2 l ho2 h2 _ q)

theorem hDense1_row (x4 : FVec Ideal S3x256x256 .f32) (x5 : FVec Ideal S3x256 .f32) (V : FVec Ideal S65536x256 .f32) (r : Fin 65536) :
    (fun q : Fin 256 => hDense ![0, 0, 0] Facts₀.slices_S3x256x256_S1x256x256_0_0_0 ![0, 0] Facts₀.slices_S3x256_S1x256_0_0 x4 x5 V (ix2 r q))
      = Cert.Flow.affine (fun k q => x4 (ix3 (0 : Fin 3) q k)) (fun q => x5 (ix2 (0 : Fin 3) q)) (fun k => V (ix2 r k)) :=
  hDense_row 0 _ rfl _ _ rfl _ x4 x5 V r

theorem hDense2_row (x4 : FVec Ideal S3x256x256 .f32) (x5 : FVec Ideal S3x256 .f32) (V : FVec Ideal S65536x256 .f32) (r : Fin 65536) :
    (fun q : Fin 256 => hDense ![1, 0, 0] Facts₀.slices_S3x256x256_S1x256x256_1_0_0 ![1, 0] Facts₀.slices_S3x256_S1x256_1_0 x4 x5 V (ix2 r q))
      = Cert.Flow.affine (fun k q => x4 (ix3 (1 : Fin 3) q k)) (fun q => x5 (ix2 (1 : Fin 3) q)) (fun k => V (ix2 r k)) :=
  hDense_row 1 _ rfl _ _ rfl _ x4 x5 V r

theorem hDense3_row (x4 : FVec Ideal S3x256x256 .f32) (x5 : FVec Ideal S3x256 .f32) (V : FVec Ideal S65536x256 .f32) (r : Fin 65536) :
    (fun q : Fin 256 => hDense ![2, 0, 0] Facts₀.slices_S3x256x256_S1x256x256_2_0_0 ![2, 0] Facts₀.slices_S3x256_S1x256_2_0 x4 x5 V (ix2 r q))
      = Cert.Flow.affine (fun k q => x4 (ix3 (2 : Fin 3) q k)) (fun q => x5 (ix2 (2 : Fin 3) q)) (fun k => V (ix2 r k)) :=
  hDense_row 2 _ rfl _ _ rfl _ x4 x5 V r

/-- The host's quotient acts entry by entry. -/
theorem hostDivf_apply {s : Shape} {φ : FTy} (a b : FVec Ideal s φ) (i : s.Idx) : Host.divf a b i = Ideal.div (a i) (b i) := rfl

/-- Row r of a reflection. -/
theorem hReflect_row (V Z : FVec Ideal S65536x256 .f32) (r : Fin 65536) :
    (fun q : Fin 256 => hReflect V Z (ix2 r q)) = Cert.Flow.reflect (fun k => V (ix2 r k)) (fun k => Z (ix2 r k)) := by
  have hcol : ∀ a : FVec Ideal S65536x256 .f32,
      broadcastInDim S65536x1 ![0] Facts₀.bcast_S65536_S65536x1_0
        (Host.reduceAdd a (constant S_ .f32 0x00000000#32) Facts₀.reducesTo_S65536x256_S65536_d1 Facts₀.h_S_) (ix2 r (0 : Fin 1))
        = ∑ k : Fin 256, a (ix2 r k) := fun a =>
    (Cert.Lib.bcast_col_apply _ Facts₀.bcast_S65536_S65536x1_0 r 0).trans
      (Cert.Lib.host_rowSum_apply (by decide) a Facts₀.reducesTo_S65536x256_S65536_d1 Facts₀.h_S_ r)
  funext q
  unfold hReflect Cert.Flow.reflect
  refine (subf_apply _ _ _).trans ?_
  refine congrArg (Z (ix2 r q) - ·) ?_
  refine (mulf_apply _ _ _).trans ?_
  refine congrArg₂ (· * ·) ?_ ?_
  · refine (mulf_apply _ _ _).trans ?_
    exact congrArg (· * V (ix2 r q)) (Cert.Lib.bcast_scalar_apply Facts₀.bcast_S_S65536x256 0x40000000#32 (ix2 r q))
  · refine (Cert.Lib.bcast_col_rows_apply _ Facts₀.bcast_S65536x1_S65536x256_0_1 r q).trans ?_
    refine (hostDivf_apply _ _ _).trans ?_
    exact congrArg₂ Ideal.div (hcol (mulf V Z)) (hcol (mulf V V))

/-- The reference's result array is the specification's. -/
theorem result_eq (x0 : FVec Ideal S65536x256 .f32) (x1 : FVec Ideal S65536x300 .f32) (x2 : FVec Ideal S256x300 .f32) (x3 : FVec Ideal S256 .f32) (x4 : FVec Ideal S3x256x256 .f32) (x5 : FVec Ideal S3x256 .f32) :
    val_main_v79 (F := Ideal) x0 x1 x2 x3 x4 x5 = Cert.Flow.result (R := 65536) (n := 256) (K := 300) x0 x1 x2 x3 x4 x5 := by
  funext i
  obtain ⟨r, q, rfl⟩ : ∃ (r : Fin 65536) (q : Fin 256), i = ix2 r q := ⟨i 0, i 1, eq_ix2 i⟩
  refine congrFun (?_ : (fun q : Fin 256 => val_main_v79 (F := Ideal) x0 x1 x2 x3 x4 x5 (ix2 r q))
      = fun q => Cert.Flow.result (R := 65536) (n := 256) (K := 300) x0 x1 x2 x3 x4 x5 (ix2 r q)) q
  rw [v79_eq x0 x1 x2 x3 x4 x5, hReflect_row, v67_eq x0 x1 x2 x3 x4 x5, hDense3_row, v58_eq x0 x1 x2 x3 x4 x5, hReflect_row,
    v46_eq x0 x1 x2 x3 x4 x5, hDense2_row, v37_eq x0 x1 x2 x3 x4 x5, hReflect_row, v25_eq x0 x1 x2 x3 x4 x5, hDense1_row,
    v16_eq x0 x1 x2 x3 x4 x5, hReflect_row, v4_row]
  rfl

end Cert.ReferenceIdeal.FlowRef

end
-- ==== Proof.lean ====
/-
  The certificate of a chain of four Householder reflections: the Pallas kernel against its jnp reference.

  Each row of `h` goes through a dense layer and then three more, each row of `z` is reflected once by each layer's
  output: `z ↦ z − 2·v·((v·z) / (v·v))` (Proof/Spec.lean states this chain on one row of extended reals). The kernel
  does it for blocks of 4096 rows over a grid of 16 points, each block in four chunks of 1024 rows, with the weights
  transposed and rounded to bf16 before the call and every matrix product taken on bf16 operands; the reference does
  it for all 65536 rows at once in f32. At the extended reals a change of float format is the identity and a sum has
  no order, so both compute, row by row, the same operations in the same order, and no law of arithmetic is needed to
  join them — in particular nothing about the inputs being finite: the precondition is never opened.

    frames      — the two kernels' frames are the generated ones; the reference's is its generated run with the
                  result dropped.
    preserves   — the idealization rewrote no operation: `True`.
    algebraic   — the kernel's result array (Proof/KernelValue.lean, over Proof/Body.lean and Proof/Pieces.lean) and
                  the reference's (Proof/RefValue.lean) are both the specification's function of the six arguments.
-/
import proofs.«142471_j44659069944367_2_alg».proof.Defs
import proofs.«142471_j44659069944367_2_alg».proof.Proof.Gen.Kernel
import proofs.«142471_j44659069944367_2_alg».proof.Proof.Gen.Kernel.Skeleton
import proofs.«142471_j44659069944367_2_alg».proof.Proof.Gen.Kernel.Launch
import proofs.«142471_j44659069944367_2_alg».proof.Proof.Gen.Kernel.Points
import proofs.«142471_j44659069944367_2_alg».proof.Proof.Gen.Kernel.Frame
import proofs.«142471_j44659069944367_2_alg».proof.Proof.Gen.KernelIdeal
import proofs.«142471_j44659069944367_2_alg».proof.Proof.Gen.KernelIdeal.Skeleton
import proofs.«142471_j44659069944367_2_alg».proof.Proof.Gen.KernelIdeal.Launch
import proofs.«142471_j44659069944367_2_alg».proof.Proof.Gen.KernelIdeal.Points
import proofs.«142471_j44659069944367_2_alg».proof.Proof.Gen.KernelIdeal.Frame
import proofs.«142471_j44659069944367_2_alg».proof.Proof.Gen.ReferenceIdeal
import proofs.«142471_j44659069944367_2_alg».proof.Proof.Gen.Pre_finite_inputs
import proofs.«142471_j44659069944367_2_alg».proof.Proof.Gen.KernelIdeal.Value
import proofs.«142471_j44659069944367_2_alg».proof.Proof.Gen.ReferenceIdeal.Run
import proofs.«142471_j44659069944367_2_alg».proof.Proof.Gen.ReferenceIdeal.Read
import proofs.«142471_j44659069944367_2_alg».proof.Proof.KernelValue
import proofs.«142471_j44659069944367_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the specification's function of arguments that agree. -/
theorem algebraic : Cert.algebraic_KernelIdeal_ReferenceIdeal := by
  intro m ρ m' ρ' _ hagree
  refine ⟨fun c => Cert.KernelIdeal.FlowValue.G m c, Cert.KernelIdeal.FlowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.FlowRef.result_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
